-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1100 : Shape := ⟨2, ![50000, 1100]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x1100 : S_.BroadcastsInDim S50000x1100 (![] : Fin 0 → Fin S50000x1100.rank)
  reducesTo_S50000x1100_S_d0_1 : S50000x1100.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x1100 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x1100 .f32 := Host.absf main_arg0
  let main_cst : FVec F S_ .f32 := constant S_ .f32 0x7F800000#32
  let main_v1 : FVec F S50000x1100 .f32 := broadcastInDim S50000x1100 ![] bcast_S_S50000x1100 main_cst
  let main_v2 : IVec S50000x1100 1 := cmpf .olt main_v0 main_v1
  let main_c : IVec S_ 1 := constantI S_ 1 1#1
  let main_v3 : IVec S_ 1 := (fun x v => Host.reduce IntOp.andi x v reducesTo_S50000x1100_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x1100 : Shape := ⟨2, ![50000, 1100]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000x512 : Shape := ⟨2, ![50000, 512]⟩
abbrev S50000x256 : Shape := ⟨2, ![50000, 256]⟩
abbrev S2000x512 : Shape := ⟨2, ![2000, 512]⟩
abbrev S2000x256 : Shape := ⟨2, ![2000, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 130
  | .vmem => 10
  | .smem => 0
  | _ => 0

abbrev hbmTy0_0 (i : Nat) : BufTy := match i % 128 with
  | 0 => ⟨S50000x1100, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S50000x512, .f32⟩
  | 7 => ⟨S50000x256, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x256, .f32⟩
  | 57 => ⟨S850000x1, .f32⟩
  | 58 => ⟨S850000x256, .f32⟩
  | 59 => ⟨S850000x256, .f32⟩
  | 60 => ⟨S_, .f32⟩
  | 61 => ⟨S50000x256, .f32⟩
  | 62 => ⟨S850000x1, .i32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x128, .f32⟩
  | 71 => ⟨S1x800000, .i32⟩
  | 72 => ⟨S800000, .i32⟩
  | 73 => ⟨S1x800000, .i32⟩
  | 74 => ⟨S800000, .i32⟩
  | 75 => ⟨S50000, .i32⟩
  | 76 => ⟨S850000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x1100, .f32⟩

abbrev hbmTy0_1 (i : Nat) : BufTy := match i % 128 with
  | 0 => ⟨S50000x128, .f32⟩
  | 1 => ⟨S50000x128, .f32⟩
  | _ => ⟨S50000x1100, .f32⟩

abbrev hbmTy (i : Nat) : BufTy := match i / 128 with
  | 0 => hbmTy0_0 i
  | 1 => hbmTy0_1 i
  | _ => ⟨S50000x1100, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x1100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S50000x1100_S50000x512_0_588 : S50000x1100.Slices ![0, 588] S50000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S2000x512_S512x256_S2000x256_1_0_0_1_n_n_wf : DotDims.WF S2000x512 S512x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x1100 : Shape := ⟨2, ![50000, 1100]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000x512 : Shape := ⟨2, ![50000, 512]⟩
abbrev S50000x256 : Shape := ⟨2, ![50000, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S50000x1100, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S50000x512, .f32⟩
  | 7 => ⟨S50000x256, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x256, .f32⟩
  | 57 => ⟨S850000x1, .f32⟩
  | 58 => ⟨S850000x256, .f32⟩
  | 59 => ⟨S850000x256, .f32⟩
  | 60 => ⟨S_, .f32⟩
  | 61 => ⟨S50000x256, .f32⟩
  | 62 => ⟨S850000x1, .i32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x128, .f32⟩
  | 71 => ⟨S1x800000, .i32⟩
  | 72 => ⟨S800000, .i32⟩
  | 73 => ⟨S1x800000, .i32⟩
  | 74 => ⟨S800000, .i32⟩
  | 75 => ⟨S50000, .i32⟩
  | 76 => ⟨S850000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x1100, .f32⟩

abbrev hbmTy0_1 (i : Nat) : BufTy := match i % 128 with
  | 0 => ⟨S50000x128, .f32⟩
  | 1 => ⟨S50000x128, .f32⟩
  | _ => ⟨S50000x1100, .f32⟩

abbrev hbmTy (i : Nat) : BufTy := match i / 128 with
  | 0 => hbmTy0_0 i
  | 1 => hbmTy0_1 i
  | _ => ⟨S50000x1100, .f32⟩

abbrev bufTy : (tb : Table) → Fin (tcTables nBuf tb) → BufTy
  | .hbm, ⟨i, _⟩ => hbmTy i
  | _, _ => ⟨S50000x1100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S50000x1100_S50000x512_0_588 : S50000x1100.Slices ![0, 588] S50000x512
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run with its result named.

  The program is a chain of ten segments: host operations, the first matrix product (a pipelined region), host
  operations, the second matrix product, host operations.  Each segment takes every unscoped buffer from the contents
  at its entry to the contents at its exit, so the last segment ends with every unscoped buffer at the last boundary's
  contents; read at the result buffer this names the result, and read at an argument it is the argument as launched.
-/
import proofs.«149389_j51453708206755_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    every argument as launched. -/
theorem run : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Result

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Product.lean ====
/-
  The product of two matrices, entry by entry, on the extended reals: entry (p, q) of A·B is the sum over k of
  A(p, k) · B(k, q).  This is what both programs compute for each layer — one block of rows at a time on the matrix
  unit, or all at once as a contraction — before the shared aggregation.
-/
import Idealize.ShloMosaic.PureOps.Ideal
import Idealize.ShloMosaic.Lib.ValueIdx

noncomputable section

namespace Cert.Gcn

open Idealize.ShloMosaic Idealize.ShloMosaic.ValueIdx

/-- Rows times columns. -/
def rowsTimesCols {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (⟨(i 0).val, (i 0).isLt⟩ : Fin M) k) * B (ix2 k (⟨(i 1).val, (i 1).isLt⟩ : Fin N))

theorem rowsTimesCols_apply {M K N : ℕ} (A : (⟨2, ![M, K]⟩ : Shape).Idx → EReal) (B : (⟨2, ![K, N]⟩ : Shape).Idx → EReal)
    (p : Fin M) (q : Fin N) : rowsTimesCols A B (ix2 p q) = ∑ k : Fin K, A (ix2 p k) * B (ix2 k q) := rfl

end Cert.Gcn

end
-- ==== Proof.KernelProduct0.lean ====
/-
  The first matrix product as the kernel computes it: 2000 rows at a time.

  Grid point t of the 25 loads rows 2000·t … 2000·t + 1999 of the left matrix and the whole right matrix, rounds both to
  bf16 (the identity on the extended reals), multiplies them on the matrix unit into a zero accumulator, and writes the
  2000 × 256 result back as rows 2000·t … of the output.  The blocks tile the output, so the output array ends as the
  product of the two arrays the region found, whatever those are.
-/
import proofs.«149389_j51453708206755_1_alg».proof.Proof.Gen.KernelIdeal.Frame
import proofs.«149389_j51453708206755_1_alg».proof.Proof.LibMatmul
import proofs.«149389_j51453708206755_1_alg».proof.Proof.Product
import Idealize.ShloMosaic.Lib.Pipeline.Value
import Idealize.ShloMosaic.Lib.ValueIdx

set_option maxRecDepth 16384

noncomputable section

namespace Cert.KernelIdeal.Product0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀ Cert.Gcn

theorem hz : (![0, 0] : Fin 2 → Nat) = fun _ => 0 := funext fun a => by fin_cases a <;> rfl

/-- One block's product, at entry (p, q): the sum over k of (block of the left matrix)(p, k) · (right matrix)(k, q). -/
theorem block_apply (x0 : Vec Ideal S2000x512 .f32) (x1 : Vec Ideal S512x256 .f32) (p : Fin 2000) (q : Fin 256) :
    k0_pay1 (F := Ideal) x0 x1 (ix2 p q) = ∑ k : Fin 512, x0 (ix2 p k) * x1 (ix2 k q) := by
  unfold k0_pay1
  refine (Cert.MatmulAt.matmul_zero_plain_apply Facts₀.dot_S2000x512_S512x256_S2000x256_1_0_0_1_n_n_wf none
    (truncf .bf16 (shapeCast S2000x512 x0 Gen.shapeCasts_S2000x512_S2000x512) Gen.bitsLt_bf16_f32)
    (truncf .bf16 x1 Gen.bitsLt_bf16_f32) p q).trans ?_
  refine Finset.sum_congr rfl fun k _ => ?_
  show shapeCast S2000x512 x0 Gen.shapeCasts_S2000x512_S2000x512 (ix2 p k) * x1 (ix2 k q) = _
  rw [shapeCast_self]

/-- Where the blocks sit: the row block of the left matrix and of the output at point t is block t; the right matrix is one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two arrays the region found. -/
theorem flushed_eq (c : Dev nD) (t : Fin cfg0.N) :
    (dat0 V c).flushed 2 t = ((cfg0.win 2).blk t).view.read (Elt Ideal) (rowsTimesCols (V c main_v0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e00, e01, e10, e11, e20, e21⟩ := index_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q)
    = rowsTimesCols (V c main_v0) (V c main_arg2) (((cfg0.win 2).blk t).view.emb (ix2 p q))
  refine (block_apply (iblk0 V c 0 t) (iblk0 V c 1 t) p q).trans ?_
  refine Finset.sum_congr rfl fun k _ => ?_
  have hA : iblk0 V c 0 t (ix2 p k)
      = V c main_v0 (ix2 (⟨((((cfg0.win 2).blk t).view.emb (ix2 p q)) 0).val, ((((cfg0.win 2).blk t).view.emb (ix2 p q)) 0).isLt⟩ : Fin 50000) k) := by
    show V c main_v0 (((cfg0.win 0).blk t).view.emb (ix2 p k)) = _
    refine congrArg (V c main_v0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hB : iblk0 V c 1 t (ix2 k q)
      = V c main_arg2 (ix2 k (⟨((((cfg0.win 2).blk t).view.emb (ix2 p q)) 1).val, ((((cfg0.win 2).blk t).view.emb (ix2 p q)) 1).isLt⟩ : Fin 256)) := by
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  rw [hA, hB]

/-- An index of the output is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v1).slice (win0_2.rect t)).set ↔ _
  rw [View.set_slice_whole, Rect.mem_set_unit]
  exact Iff.rfl

/-- Every row of the output is in the block of the point ⌊row / 2000⌋. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  refine ⟨⟨(i 0).val / 2000, by show (i 0).val / 2000 < grid0.N; omega⟩, flush0_2 _, ?_⟩
  rw [mem_blk]
  obtain ⟨e00, e01, e10, e11, e20, e21⟩ := index_facts ⟨(i 0).val / 2000, by show (i 0).val / 2000 < grid0.N; omega⟩
  have e20' : win0_2.index ⟨(i 0).val / 2000, by show (i 0).val / 2000 < grid0.N; omega⟩ (0 : Fin 2) = (i 0).val / 2000 := e20
  intro a
  match a with
  | ⟨0, _⟩ =>
    show win0_2.index _ (0 : Fin 2) * 2000 ≤ (i 0).val ∧ (i 0).val < win0_2.index _ (0 : Fin 2) * 2000 + 2000
    omega
  | ⟨1, _⟩ =>
    show win0_2.index _ (1 : Fin 2) * 256 ≤ (i 1).val ∧ (i 1).val < win0_2.index _ (1 : Fin 2) * 256 + 256
    omega

/-- The output array after the region: the product of the two arrays the region found. -/
theorem final (c : Dev nD) : (dat0 V c).arrAt 2 cfg0.N = rowsTimesCols (V c main_v0) (V c main_arg2) :=
  (dat0 V c).arrAt_eq_of_cover 2 (rowsTimesCols (V c main_v0) (V c main_arg2)) (fun t _ => flushed_eq V c t) cover

end Cert.KernelIdeal.Product0

end
-- ==== Proof.KernelProduct1.lean ====
/-
  The second matrix product as the kernel computes it: 2000 rows at a time.

  Grid point t of the 25 loads rows 2000·t … 2000·t + 1999 of the left matrix and the whole right matrix, rounds both to
  bf16 (the identity on the extended reals), multiplies them on the matrix unit into a zero accumulator, and writes the
  2000 × 128 result back as rows 2000·t … of the output.  The blocks tile the output, so the output array ends as the
  product of the two arrays the region found, whatever those are.
-/
import proofs.«149389_j51453708206755_1_alg».proof.Proof.Gen.KernelIdeal.Frame
import proofs.«149389_j51453708206755_1_alg».proof.Proof.LibMatmul
import proofs.«149389_j51453708206755_1_alg».proof.Proof.Product
import Idealize.ShloMosaic.Lib.Pipeline.Value
import Idealize.ShloMosaic.Lib.ValueIdx

set_option maxRecDepth 16384

noncomputable section

namespace Cert.KernelIdeal.Product1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀ Cert.Gcn

theorem hz : (![0, 0] : Fin 2 → Nat) = fun _ => 0 := funext fun a => by fin_cases a <;> rfl

/-- One block's product, at entry (p, q): the sum over k of (block of the left matrix)(p, k) · (right matrix)(k, q). -/
theorem block_apply (x0 : Vec Ideal S2000x256 .f32) (x1 : Vec Ideal S256x128 .f32) (p : Fin 2000) (q : Fin 128) :
    k1_pay1 (F := Ideal) x0 x1 (ix2 p q) = ∑ k : Fin 256, x0 (ix2 p k) * x1 (ix2 k q) := by
  unfold k1_pay1
  refine (Cert.MatmulAt.matmul_zero_plain_apply Facts₀.dot_S2000x256_S256x128_S2000x128_1_0_0_1_n_n_wf none
    (truncf .bf16 (shapeCast S2000x256 x0 Gen.shapeCasts_S2000x256_S2000x256) Gen.bitsLt_bf16_f32)
    (truncf .bf16 x1 Gen.bitsLt_bf16_f32) p q).trans ?_
  refine Finset.sum_congr rfl fun k _ => ?_
  show shapeCast S2000x256 x0 Gen.shapeCasts_S2000x256_S2000x256 (ix2 p k) * x1 (ix2 k q) = _
  rw [shapeCast_self]

/-- Where the blocks sit: the row block of the left matrix and of the output at point t is block t; the right matrix is one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the product of the two arrays the region found. -/
theorem flushed_eq (c : Dev nD) (t : Fin cfg1.N) :
    (dat1 V c).flushed 2 t = ((cfg1.win 2).blk t).view.read (Elt Ideal) (rowsTimesCols (V c main_v48) (V c main_arg4)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  obtain ⟨e00, e01, e10, e11, e20, e21⟩ := index_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = rowsTimesCols (V c main_v48) (V c main_arg4) (((cfg1.win 2).blk t).view.emb (ix2 p q))
  refine (block_apply (iblk1 V c 0 t) (iblk1 V c 1 t) p q).trans ?_
  refine Finset.sum_congr rfl fun k _ => ?_
  have hA : iblk1 V c 0 t (ix2 p k)
      = V c main_v48 (ix2 (⟨((((cfg1.win 2).blk t).view.emb (ix2 p q)) 0).val, ((((cfg1.win 2).blk t).view.emb (ix2 p q)) 0).isLt⟩ : Fin 50000) k) := by
    show V c main_v48 (((cfg1.win 0).blk t).view.emb (ix2 p k)) = _
    refine congrArg (V c main_v48) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * k.val = k.val; omega
  have hB : iblk1 V c 1 t (ix2 k q)
      = V c main_arg4 (ix2 k (⟨((((cfg1.win 2).blk t).view.emb (ix2 p q)) 1).val, ((((cfg1.win 2).blk t).view.emb (ix2 p q)) 1).isLt⟩ : Fin 128)) := by
    show V c main_arg4 (((cfg1.win 1).blk t).view.emb (ix2 k q)) = _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 128 + 1 * q.val = win1_2.index t (1 : Fin 2) * 128 + 1 * q.val; omega
  rw [hA, hB]

/-- An index of the output is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- Every row of the output is in the block of the point ⌊row / 2000⌋. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  refine ⟨⟨(i 0).val / 2000, by show (i 0).val / 2000 < grid1.N; omega⟩, flush1_2 _, ?_⟩
  rw [mem_blk]
  obtain ⟨e00, e01, e10, e11, e20, e21⟩ := index_facts ⟨(i 0).val / 2000, by show (i 0).val / 2000 < grid1.N; omega⟩
  have e20' : win1_2.index ⟨(i 0).val / 2000, by show (i 0).val / 2000 < grid1.N; omega⟩ (0 : Fin 2) = (i 0).val / 2000 := e20
  intro a
  match a with
  | ⟨0, _⟩ =>
    show win1_2.index _ (0 : Fin 2) * 2000 ≤ (i 0).val ∧ (i 0).val < win1_2.index _ (0 : Fin 2) * 2000 + 2000
    omega
  | ⟨1, _⟩ =>
    show win1_2.index _ (1 : Fin 2) * 128 ≤ (i 1).val ∧ (i 1).val < win1_2.index _ (1 : Fin 2) * 128 + 128
    omega

/-- The output array after the region: the product of the two arrays the region found. -/
theorem final (c : Dev nD) : (dat1 V c).arrAt 2 cfg1.N = rowsTimesCols (V c main_v48) (V c main_arg4) :=
  (dat1 V c).arrAt_eq_of_cover 2 (rowsTimesCols (V c main_v48) (V c main_arg4)) (fun t _ => flushed_eq V c t) cover

end Cert.KernelIdeal.Product1

end
-- ==== Proof.Aggregate.lean ====
/-
  The graph-convolution aggregation that both programs apply, unchanged, to the product X·W of each layer.

  With the self loops appended to the edge list (sources `src`, targets `dst`, both of length E + N), the degree of a
  node is the number of list entries whose target it is, `dinv` is deg^(-1/2) where the degree is positive and 0
  elsewhere, the weight of list entry e is dinv(src e) · dinv(dst e), and the aggregate of a feature matrix xw is, row n,
  the sum over the entries e with dst e = n of weight(e) · xw(src e, ·), plus the bias row.  Index words are wrapped
  (a negative word has the node count added) before they address `dinv` and `xw`.  None of this is opened by the
  proof: the two programs agree on these operations symbol by symbol, and differ only in how X·W is computed.
-/
import proofs.«149389_j51453708206755_1_alg».proof.Proof.Gen.KernelIdeal

noncomputable section

namespace Cert.Gcn

open Idealize.ShloMosaic Cert.KernelIdeal Cert.KernelIdeal.Facts₀

variable {F : FTy → Type} [FloatOps F]

/-- Row `r` (0: sources, 1: targets) of the edge list, flattened, with the self loops 0 … N-1 appended. -/
def ends0 (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

def ends1 (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- The degree of every node: a scatter-add of ones at the targets into zeros. -/
def degree (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- deg^(-1/2) where deg > 0, and 0 elsewhere. -/
def invSqrtDeg (deg : (⟨S50000, .f32⟩ : BufTy).Contents (Elt F)) : (⟨S50000, .f32⟩ : BufTy).Contents (Elt F) :=
  select (cmpf .ogt deg (broadcastInDim S50000 ![] bcast_S_S50000 (constant S_ .f32 0x00000000#32)))
    (Host.rsqrt deg)
    (broadcastInDim S50000 ![] bcast_S_S50000 (id (constant S_ .f32 0x00000000#32)))

/-- An index word wrapped into range (a negative word has N added), as a column of start indices. -/
def wrapped (idx : (⟨S850000, .i32⟩ : BufTy).Contents (Elt F)) : (⟨S850000x1, .i32⟩ : BufTy).Contents (Elt F) :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

/-- The weight of every list entry: dinv at its source times dinv at its target. -/
def weight (dinv : (⟨S50000, .f32⟩ : BufTy).Contents (Elt F)) (src dst : (⟨S850000, .i32⟩ : BufTy).Contents (Elt F)) :
    (⟨S850000, .f32⟩ : BufTy).Contents (Elt F) :=
  mulf (Host.gather gather_S50000_S850000x1_S850000_n_0_n_n_0_1_1 dinv (wrapped src))
    (Host.gather gather_S50000_S850000x1_S850000_n_0_n_n_0_1_1 dinv (wrapped dst))

/-- Layer 1 (256 features): gather the rows at the sources, scale by the weights, scatter-add at the targets, add the bias. -/
def aggregate256 (xw : (⟨S50000x256, .f32⟩ : BufTy).Contents (Elt F)) (ei : (⟨S2x800000, .i32⟩ : BufTy).Contents (Elt F))
    (b : (⟨S256, .f32⟩ : BufTy).Contents (Elt F)) : (⟨S50000x256, .f32⟩ : BufTy).Contents (Elt F) :=
  addf
    (Host.scatterAdd scatter_S50000x256_S850000x1_S850000x256_1_0_0_1
      (broadcastInDim S50000x256 ![] bcast_S_S50000x256 (constant S_ .f32 0x00000000#32))
      (broadcastInDim S850000x1 ![0] bcast_S850000_S850000x1_0 (ends1 ei))
      (mulf (Host.gather gather_S50000x256_S850000x1_S850000x256_1_0_n_n_0_1_1256 xw (wrapped (ends0 ei)))
        (broadcastInDim S850000x256 ![0, 1] bcast_S850000x1_S850000x256_0_1
          (broadcastInDim S850000x1 ![0] bcast_S850000_S850000x1_0
            (weight (invSqrtDeg (degree (ends1 ei))) (ends0 ei) (ends1 ei))))))
    (broadcastInDim S50000x256 ![0, 1] bcast_S1x256_S50000x256_0_1 (broadcastInDim S1x256 ![1] bcast_S256_S1x256_1 b))

/-- max(·, 0), entry by entry. -/
def relu256 (h : (⟨S50000x256, .f32⟩ : BufTy).Contents (Elt F)) : (⟨S50000x256, .f32⟩ : BufTy).Contents (Elt F) :=
  maximumf h (broadcastInDim S50000x256 ![] bcast_S_S50000x256 (constant S_ .f32 0x00000000#32))

/-- Layer 2 (128 features): the same aggregation. -/
def aggregate128 (xw : (⟨S50000x128, .f32⟩ : BufTy).Contents (Elt F)) (ei : (⟨S2x800000, .i32⟩ : BufTy).Contents (Elt F))
    (b : (⟨S128, .f32⟩ : BufTy).Contents (Elt F)) : (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 (ends1 ei))
      (mulf (Host.gather gather_S50000x128_S850000x1_S850000x128_1_0_n_n_0_1_1128 xw (wrapped (ends0 ei)))
        (broadcastInDim S850000x128 ![0, 1] bcast_S850000x1_S850000x128_0_1
          (broadcastInDim S850000x1 ![0] bcast_S850000_S850000x1_0
            (weight (invSqrtDeg (degree (ends1 ei))) (ends0 ei) (ends1 ei))))))
    (broadcastInDim S50000x128 ![0, 1] bcast_S1x128_S50000x128_0_1 (broadcastInDim S1x128 ![1] bcast_S128_S1x128_1 b))

/-- The feature columns 588 … 1099 of the input. -/
def features (x : (⟨S50000x1100, .f32⟩ : BufTy).Contents (Elt F)) : (⟨S50000x512, .f32⟩ : BufTy).Contents (Elt F) :=
  extractStridedSlice S50000x512 ![0, 588] x slices_S50000x1100_S50000x512_0_588

end Cert.Gcn

end
-- ==== Proof.Boundary.lean ====
/-
  The kernel program's buffer contents at its segment boundaries, as functions of the arguments.

  Before the first product: the feature columns of x, and W1 as launched.  Between the products the host applies the
  aggregation of layer 1 and max(·, 0) to the first product's output.  After the second product the host applies the
  aggregation of layer 2 to its output, and that is the result.  The edge list, the weights and the biases are never
  written, so wherever a segment reads them it reads the launch contents.
-/
import proofs.«149389_j51453708206755_1_alg».proof.Proof.Gen.KernelIdeal.Frame
import proofs.«149389_j51453708206755_1_alg».proof.Proof.Aggregate
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen Cert.Gcn

variable {F : FTy → Type} [FloatOps F]
variable (m : (ℓ : Loc nD τ sig) → Buf (Elt F) ℓ) (ρ : Dev nD → PrngReg)

/-! ## Entering the first product -/

theorem entry0_features (c : Dev nD) : V1 m ρ c main_v0 = features (m ((c : Thread nD τ).loc main_arg0)) := by
  show StableHlo.after hostOps0 (W0 m ρ c) (Proc.devRef .tc main_v0) = _
  after_results <;> rfl

theorem entry0_weights (c : Dev nD) : V1 m ρ c main_arg2 = m ((c : Thread nD τ).loc main_arg2) := by
  show StableHlo.after hostOps0 (W0 m ρ c) (Proc.devRef .tc main_arg2) = _
  after_results <;> rfl

/-! ## Leaving the first product: its output, and the arguments untouched -/

theorem exit0_product (c : Dev nD) : W2 m ρ c (Proc.devRef .tc main_v1) = (dat0 (V1 m ρ) c).arrAt 2 cfg0.N := W2_arr m ρ c 2

theorem exit0_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem exit0_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem exit0_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem exit0_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)

/-! ## Entering the second product -/

set_option maxHeartbeats 4000000 in
/-- The left matrix of the second product: layer 1's aggregation of the first product, then max(·, 0). -/
theorem entry1_hidden (c : Dev nD) : V6 m ρ c main_v48
    = relu256 (aggregate256 ((dat0 (V1 m ρ) c).arrAt 2 cfg0.N) (m ((c : Thread nD τ).loc main_arg1)) (m ((c : Thread nD τ).loc main_arg3))) := by
  have h : V6 m ρ c main_v48 = relu256 (aggregate256 (W2 m ρ c (Proc.devRef .tc main_v1))
      (W2 m ρ c (Proc.devRef .tc main_arg1)) (W2 m ρ c (Proc.devRef .tc main_arg3))) := by
    show StableHlo.after hostOps1_3 (StableHlo.after hostOps1_2 (StableHlo.after hostOps1_1 (StableHlo.after hostOps1 (W2 m ρ c)))) (Proc.devRef .tc main_v48) = _
    after_results_simp <;> rfl
  rw [h, exit0_product, exit0_arg1, exit0_arg3]

set_option maxHeartbeats 4000000 in
theorem entry1_arg1 (c : Dev nD) : W6 m ρ c (Proc.devRef .tc main_arg1) = m ((c : Thread nD τ).loc main_arg1) := by
  have h : W6 m ρ c (Proc.devRef .tc main_arg1) = W2 m ρ c (Proc.devRef .tc main_arg1) := by
    show StableHlo.after hostOps1_3 (StableHlo.after hostOps1_2 (StableHlo.after hostOps1_1 (StableHlo.after hostOps1 (W2 m ρ c)))) (Proc.devRef .tc main_arg1) = _
    after_results_simp <;> rfl
  exact h.trans (exit0_arg1 m ρ c)
set_option maxHeartbeats 4000000 in
theorem entry1_arg4 (c : Dev nD) : W6 m ρ c (Proc.devRef .tc main_arg4) = m ((c : Thread nD τ).loc main_arg4) := by
  have h : W6 m ρ c (Proc.devRef .tc main_arg4) = W2 m ρ c (Proc.devRef .tc main_arg4) := by
    show StableHlo.after hostOps1_3 (StableHlo.after hostOps1_2 (StableHlo.after hostOps1_1 (StableHlo.after hostOps1 (W2 m ρ c)))) (Proc.devRef .tc main_arg4) = _
    after_results_simp <;> rfl
  exact h.trans (exit0_arg4 m ρ c)
set_option maxHeartbeats 4000000 in
theorem entry1_arg5 (c : Dev nD) : W6 m ρ c (Proc.devRef .tc main_arg5) = m ((c : Thread nD τ).loc main_arg5) := by
  have h : W6 m ρ c (Proc.devRef .tc main_arg5) = W2 m ρ c (Proc.devRef .tc main_arg5) := by
    show StableHlo.after hostOps1_3 (StableHlo.after hostOps1_2 (StableHlo.after hostOps1_1 (StableHlo.after hostOps1 (W2 m ρ c)))) (Proc.devRef .tc main_arg5) = _
    after_results_simp <;> rfl
  exact h.trans (exit0_arg5 m ρ c)

theorem entry1_weights (c : Dev nD) : V6 m ρ c main_arg4 = m ((c : Thread nD τ).loc main_arg4) := entry1_arg4 m ρ c

/-! ## Leaving the second product, and the result -/

theorem exit1_product (c : Dev nD) : W7 m ρ c (Proc.devRef .tc main_v49) = (dat1 (V6 m ρ) c).arrAt 2 cfg1.N := W7_arr m ρ c 2
theorem exit1_arg1 (c : Dev nD) : W7 m ρ c (Proc.devRef .tc main_arg1) = m ((c : Thread nD τ).loc main_arg1) :=
  (W7_of_ne m ρ c main_arg1 (by decide)).trans (entry1_arg1 m ρ c)
theorem exit1_arg5 (c : Dev nD) : W7 m ρ c (Proc.devRef .tc main_arg5) = m ((c : Thread nD τ).loc main_arg5) :=
  (W7_of_ne m ρ c main_arg5 (by decide)).trans (entry1_arg5 m ρ c)

set_option maxHeartbeats 4000000 in
/-- The result: layer 2's aggregation of the second product. -/
theorem result (c : Dev nD) : W10 m ρ c (Proc.devRef .tc main_v95)
    = aggregate128 ((dat1 (V6 m ρ) c).arrAt 2 cfg1.N) (m ((c : Thread nD τ).loc main_arg1)) (m ((c : Thread nD τ).loc main_arg5)) := by
  have h : W10 m ρ c (Proc.devRef .tc main_v95) = aggregate128 (W7 m ρ c (Proc.devRef .tc main_v49))
      (W7 m ρ c (Proc.devRef .tc main_arg1)) (W7 m ρ c (Proc.devRef .tc main_arg5)) := by
    show StableHlo.after hostOps2_2 (StableHlo.after hostOps2_1 (StableHlo.after hostOps2 (W7 m ρ c))) (Proc.devRef .tc main_v95) = _
    after_results_simp <;> rfl
  rw [h, exit1_product, exit1_arg1, exit1_arg5]

end Cert.KernelIdeal.Boundary

end
-- ==== Proof.Network.lean ====
/-
  The two-layer graph convolution, as one function of the six arguments, on the extended reals:

      out = aggregate128 ( relu( aggregate256 ( features(x) · W1 ; edges, b1 ) ) · W2 ; edges, b2 )

  where "·" is the entry-by-entry matrix product and the aggregations are the shared host operations.  Both programs
  end with their result at this value.
-/
import proofs.«149389_j51453708206755_1_alg».proof.Proof.Aggregate
import proofs.«149389_j51453708206755_1_alg».proof.Proof.Product

noncomputable section

namespace Cert.Gcn

open Idealize.ShloMosaic Cert.KernelIdeal

def network (x : (⟨S50000x1100, .f32⟩ : BufTy).Contents (Elt Ideal)) (ei : (⟨S2x800000, .i32⟩ : BufTy).Contents (Elt Ideal))
    (W1 : (⟨S512x256, .f32⟩ : BufTy).Contents (Elt Ideal)) (b1 : (⟨S256, .f32⟩ : BufTy).Contents (Elt Ideal))
    (W2 : (⟨S256x128, .f32⟩ : BufTy).Contents (Elt Ideal)) (b2 : (⟨S128, .f32⟩ : BufTy).Contents (Elt Ideal)) :
    (⟨S50000x128, .f32⟩ : BufTy).Contents (Elt Ideal) :=
  aggregate128 (rowsTimesCols (relu256 (aggregate256 (rowsTimesCols (features x) W1) ei b1)) W2) ei b2

end Cert.Gcn

end
-- ==== Proof.KernelValue.lean ====
/-
  The kernel program's result as a function of the arguments: the network's value.

  The result buffer ends at layer 2's aggregation of the second product's output; that output is the product of what
  the second region found — layer 1's aggregation, then max(·, 0), of the first product's output, and W2 —; the first
  output is the product of the feature columns of x and W1.
-/
import proofs.«149389_j51453708206755_1_alg».proof.Proof.KernelRun
import proofs.«149389_j51453708206755_1_alg».proof.Proof.KernelProduct0
import proofs.«149389_j51453708206755_1_alg».proof.Proof.KernelProduct1
import proofs.«149389_j51453708206755_1_alg».proof.Proof.Boundary
import proofs.«149389_j51453708206755_1_alg».proof.Proof.Network

set_option maxRecDepth 16384

noncomputable section

namespace Cert.KernelIdeal.NetworkValue

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg)

theorem result_eq (c : Dev nD) : W10 m ρ c (Proc.devRef .tc main_v95)
    = network (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [Boundary.result, Product1.final (V6 m ρ) c, Boundary.entry1_hidden, Boundary.entry1_weights,
    Product0.final (V1 m ρ) c, Boundary.entry0_features, Boundary.entry0_weights]
  rfl

/-- Every weakly fair execution of the kernel program terminates without a fault, with the result at the network's
    value and the arguments as launched. -/
theorem run : θ_run defs (onTc (τ := τ) (main (F := Ideal))) ⟨m, fun _ => 0, ρ⟩ (fun r => ∀ c : Dev nD,
      r.2.mem ((c.tc : Thread nD τ).loc main_v95)
        = network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Result.run m ρ)

end Cert.KernelIdeal.NetworkValue

end
-- ==== Proof.LibDotGeneral.lean ====
/-
  A host contraction read at an entry.

  At the exact instance the host's `dot_general` of an M x K left operand with a K x N right operand, contracting the
  left operand's second axis with the right operand's first and with no batch axis, is entry by entry the textbook
  product: entry (p, q) is the sum over k of lhs(p, k) * rhs(k, q) (`dotGeneral_plain_apply`).  The dimension record
  is the one with exactly those contracting and free axes (`Cert.MatmulAt.plainDims`, shared with the matrix-unit
  product), so a kernel's matrix-unit product and a reference's contraction meet in the same sum.
-/
import Idealize.ShloMosaic.PureOps.Ideal.Laws
import Idealize.ShloMosaic.Lib.ValueIdx
import proofs.«149389_j51453708206755_1_alg».proof.Proof.LibMatmul

noncomputable section

namespace Cert.DotGeneralAt

open Idealize.ShloMosaic Idealize.ShloMosaic.ValueIdx Cert.MatmulAt

/-- Rows times columns on the host, at entry (p, q). -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (F := Ideal) (plainDims wf) prec lhs rhs (ix2 p q)
      = ∑ k : Fin K, lhs (ix2 p k) * rhs (ix2 k q) := by
  simp only [Host.dotGeneral]
  rw [Ideal.dotGeneral_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

end Cert.DotGeneralAt

end
-- ==== Proof.ReferenceValue.lean ====
/-
  The reference's result as a function of the arguments.

  The reference computes  aggregate128 ( relu( aggregate256 ( features(x) · W1 ) ) · W2 ),  each product one host
  contraction.  Its run's result term is exactly that composition (the same host operations, symbol by symbol, as the
  shared aggregation), and at the exact instance each contraction is the entry-by-entry product.
-/
import proofs.«149389_j51453708206755_1_alg».proof.Proof.ReferenceRun
import proofs.«149389_j51453708206755_1_alg».proof.Proof.Aggregate
import proofs.«149389_j51453708206755_1_alg».proof.Proof.Product
import proofs.«149389_j51453708206755_1_alg».proof.Proof.Network
import proofs.«149389_j51453708206755_1_alg».proof.Proof.LibDotGeneral

set_option maxRecDepth 16384

noncomputable section

namespace Cert.ReferenceIdeal.Spec

open Idealize.ShloMosaic Idealize.ShloMosaic.TcCoe Idealize.ShloMosaic.ValueIdx Idealize.SL.Sem
open Cert.ReferenceIdeal Cert.ReferenceIdeal.Facts₀

/-- A 50000 x 512 by 512 x 256 contraction on the host is the entry-by-entry product. -/
theorem contraction512 (A : FVec Ideal S50000x512 .f32) (B : FVec Ideal S512x256 .f32) :
    Host.dotGeneral (F := Ideal) dot_S50000x512_S512x256_S50000x256_1_0_0_1_n_n none A B = Cert.Gcn.rowsTimesCols A B := by
  funext i
  obtain ⟨p, q, rfl⟩ : ∃ (p : Fin 50000) (q : Fin 256), i = ix2 p q := ⟨i 0, i 1, eq_ix2 i⟩
  exact Cert.DotGeneralAt.dotGeneral_plain_apply dot_S50000x512_S512x256_S50000x256_1_0_0_1_n_n_wf none A B p q

/-- A 50000 x 256 by 256 x 128 contraction on the host is the entry-by-entry product. -/
theorem contraction256 (A : FVec Ideal S50000x256 .f32) (B : FVec Ideal S256x128 .f32) :
    Host.dotGeneral (F := Ideal) dot_S50000x256_S256x128_S50000x128_1_0_0_1_n_n none A B = Cert.Gcn.rowsTimesCols A B := by
  funext i
  obtain ⟨p, q, rfl⟩ : ∃ (p : Fin 50000) (q : Fin 128), i = ix2 p q := ⟨i 0, i 1, eq_ix2 i⟩
  exact Cert.DotGeneralAt.dotGeneral_plain_apply dot_S50000x256_S256x128_S50000x128_1_0_0_1_n_n_wf none A B p q

variable {F : FTy → Type} [FloatOps F]

set_option maxHeartbeats 4000000 in
/-- The run's result term is the composition: features, product, aggregation, max(·, 0), product, aggregation. -/
theorem result_term (m : (ℓ : Loc nD τ sig) → Buf (Elt F) ℓ) (c : Dev nD) :
    Cert.ReferenceIdeal.ValueP.res_main_v95 m c
      = Cert.Gcn.aggregate128
          (Host.dotGeneral dot_S50000x256_S256x128_S50000x128_1_0_0_1_n_n none
            (Cert.Gcn.relu256 (Cert.Gcn.aggregate256
              (Host.dotGeneral dot_S50000x512_S512x256_S50000x256_1_0_0_1_n_n none
                (Cert.Gcn.features (m ((c.tc : Thread nD τ).loc main_arg0))) (m ((c.tc : Thread nD τ).loc main_arg2)))
              (m ((c.tc : Thread nD τ).loc main_arg1)) (m ((c.tc : Thread nD τ).loc main_arg3))))
            (m ((c.tc : Thread nD τ).loc main_arg4)))
          (m ((c.tc : Thread nD τ).loc main_arg1)) (m ((c.tc : Thread nD τ).loc main_arg5)) := by
  unfold Cert.ReferenceIdeal.ValueP.res_main_v95
  rfl

/-- At the exact instance the reference's result is the network's value at the arguments. -/
theorem result_eq (m : (ℓ : Loc nD τ sig) → Buf (Elt Ideal) ℓ) (c : Dev nD) :
    Cert.ReferenceIdeal.ValueP.res_main_v95 m c
      = Cert.Gcn.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [result_term, contraction512, contraction256]
  rfl

end Cert.ReferenceIdeal.Spec

end
-- ==== Proof.lean ====
/-
  A two-layer graph convolution (GCN) with ReLU: the kernel program computes each layer's dense product X·W on the
  matrix unit, 2000 rows at a time with operands rounded to bf16, where the reference applies one host contraction;
  everything else — the degree count over the edge list with self loops, the symmetric normalisation
  deg^(-1/2)·deg^(-1/2), the gather / scale / scatter-add aggregation, the bias and the ReLU — is the same sequence of
  host operations in both programs.

  On the extended reals a change of float format is the identity and a matrix-unit product into a zero accumulator is
  the exact sum of products, so each block of the kernel's product is the corresponding block of the textbook product;
  the blocks tile the output; and the host contraction is the same sum.  Hence both programs end at

      aggregate128 ( relu( aggregate256 ( x[:, 588:] · W1 ) ) · W2 )

  and the shared aggregation is carried as one function that is never opened.  No finiteness of the inputs is used:
  the two sides are the same sums of the same products, term by term.

  The three frames are the generated frame certificates (the reference's is its run with the result dropped); the
  idealization rewrote nothing, so `preserves` is trivial.
-/
import proofs.«149389_j51453708206755_1_alg».proof.Defs
import proofs.«149389_j51453708206755_1_alg».proof.Proof.Gen.Kernel
import proofs.«149389_j51453708206755_1_alg».proof.Proof.Gen.Kernel.Skeleton
import proofs.«149389_j51453708206755_1_alg».proof.Proof.Gen.Kernel.Launch
import proofs.«149389_j51453708206755_1_alg».proof.Proof.Gen.Kernel.Points
import proofs.«149389_j51453708206755_1_alg».proof.Proof.Gen.Kernel.Frame
import proofs.«149389_j51453708206755_1_alg».proof.Proof.Gen.KernelIdeal
import proofs.«149389_j51453708206755_1_alg».proof.Proof.Gen.KernelIdeal.Skeleton
import proofs.«149389_j51453708206755_1_alg».proof.Proof.Gen.KernelIdeal.Launch
import proofs.«149389_j51453708206755_1_alg».proof.Proof.Gen.KernelIdeal.Points
import proofs.«149389_j51453708206755_1_alg».proof.Proof.Gen.KernelIdeal.Frame
import proofs.«149389_j51453708206755_1_alg».proof.Proof.Gen.ReferenceIdeal
import proofs.«149389_j51453708206755_1_alg».proof.Proof.Gen.Pre_finite_inputs
import proofs.«149389_j51453708206755_1_alg».proof.Proof.KernelValue
import proofs.«149389_j51453708206755_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result at the network's value at the arguments, which agree. -/
theorem algebraic : Cert.algebraic_KernelIdeal_ReferenceIdeal := by
  intro m ρ m' ρ' _ hagree
  refine ⟨_, Cert.KernelIdeal.NetworkValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Spec.result_eq m' c, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
